-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S512x4096 .f32) (main_arg1 : IVec S11008x4096 32) (main_arg2 : FVec F S11008x1 .f32) (main_arg3 : FVec F S11008x1 .f32) (main_arg4 : FVec F S11008 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg3
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S512x4096 : Shape := ⟨2, ![512, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩
abbrev S512 : Shape := ⟨1, ![512]⟩
abbrev S512x1 : Shape := ⟨2, ![512, 1]⟩
abbrev S1x11008 : Shape := ⟨2, ![1, 11008]⟩
abbrev S512x11008 : Shape := ⟨2, ![512, 11008]⟩
abbrev S256x4096 : Shape := ⟨2, ![256, 4096]⟩
abbrev S1x256 : Shape := ⟨2, ![1, 256]⟩
abbrev S512x256 : Shape := ⟨2, ![512, 256]⟩

abbrev nBuf : Space → Nat
  | .hbm => 13
  | .vmem => 12
  | .smem => 0
  | _ => 0

abbrev bufTy : (tb : Table) → Fin (tcTables nBuf tb) → BufTy
  | .hbm, ⟨0, _⟩ => ⟨S512x4096, .f32⟩
  | .hbm, ⟨1, _⟩ => ⟨S11008x4096, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S512x4096, .bf16⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S1x11008, .f32⟩
  | .hbm, ⟨10, _⟩ => ⟨S1x11008, .f32⟩
  | .hbm, ⟨11, _⟩ => ⟨S1x11008, .f32⟩
  | .hbm, ⟨12, _⟩ => ⟨S512x11008, .f32⟩
  | .local _ .vmem, ⟨0, _⟩ => ⟨S512x4096, .bf16⟩
  | .local _ .vmem, ⟨1, _⟩ => ⟨S512x1, .f32⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  reducesTo_S512x4096_S512_d1 : S512x4096.ReducesTo [1] S512
  h_S_ : 0 < S_.numel
  bcast_S512_S512x1_0 : S512.BroadcastsInDim S512x1 (![0] : Fin 1 → Fin S512x1.rank)
  shapeCasts_S11008x1_S1x11008 : S11008x1.ShapeCasts S1x11008
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x256_S512x256 : S1x256.Broadcasts S512x256
  broadcasts_S512x1_S512x256 : S512x1.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .i32 = 32 ∨ (Rect.block (s := S11008x4096) S256x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x11008.size a
  hwx0_6 : ∀ i : grid0.Coords, EltTy.bits .f32 = 32 ∨ (Rect.block (s := S512x11008) S512x256.size (cc0_transform_6 i) (hinb0_6 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x4096 : Shape := ⟨2, ![512, 4096]⟩
abbrev S11008x4096 : Shape := ⟨2, ![11008, 4096]⟩
abbrev S11008x1 : Shape := ⟨2, ![11008, 1]⟩
abbrev S11008 : Shape := ⟨1, ![11008]⟩
abbrev S512x11008 : Shape := ⟨2, ![512, 11008]⟩
abbrev S1x11008 : Shape := ⟨2, ![1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S11008x4096, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S512x11008, .f32⟩
  | .hbm, ⟨11, _⟩ => ⟨S1x11008, .f32⟩
  | .hbm, ⟨12, _⟩ => ⟨S512x11008, .f32⟩
  | .hbm, ⟨13, _⟩ => ⟨S512x11008, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S512x11008_0_1 : S1x11008.BroadcastsInDim S512x11008 (![0, 1] : Fin 2 → Fin S512x11008.rank)
  dot_S512x4096_S11008x4096_S512x11008_1_1_0_0_n_n_wf : DotDims.WF S512x4096 S11008x4096 S512x11008 [1] [1] [0] [0] [] []

variable [Facts₀]

def dot_S512x4096_S11008x4096_S512x11008_1_1_0_0_n_n : DotDims S512x4096 S11008x4096 S512x11008 where
  lhsContracting := [1]
  rhsContracting := [1]
  lhsNonContracting := [0]
  rhsNonContracting := [0]
  lhsBatch := []
  rhsBatch := []
  wf := dot_S512x4096_S11008x4096_S512x11008_1_1_0_0_n_n_wf

class Facts : Prop extends Facts₀ where

variable [Facts]
-- ==== Proof.DequantLaw.lean ====
/-
  Taking a per-row affine dequantization out of a contraction.

  A quantized weight row holds integers w_k; its dequantized entries are (w_k + o) * s for the row's offset o and scale s.
  Contracting them against x gives
      ∑ k, x_k * ((w_k + o) * s)  =  s * ((∑ k, x_k * w_k) + o * ∑ k, x_k) :
  the scale and the offset leave the sum, and the offset's share is the plain sum of x. On the extended reals this is
  distributivity, which fails at the infinities, so it is stated for real x_k, w_k, o and s (read into the extended
  reals). A bias added last may be any extended real. The kernel starts its row sum from a zero, kept here as `0 + ∑`.
-/
import Idealize.ShloMosaic.PureOps.Ideal

open scoped BigOperators

namespace Cert.DequantLaw

/-- Reading reals into the extended reals commutes with a finite sum. -/
theorem coe_sum {ι : Type} (s : Finset ι) (f : ι → ℝ) : ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The law on the reals: the scale and the offset leave the contraction. -/
theorem affine_out_real {n : ℕ} (x w : Fin n → ℝ) (o s : ℝ) :
    s * ((∑ k, x k * w k) + o * ∑ k, x k) = ∑ k, x k * ((w k + o) * s) := by
  rw [mul_add, Finset.mul_sum, Finset.mul_sum, Finset.mul_sum, ← Finset.sum_add_distrib]
  exact Finset.sum_congr rfl fun k _ => by ring

/-- The same on the extended reals, for finite entries, with the bias added on both sides. -/
theorem affine_out {n : ℕ} (x w : Fin n → ℝ) (o s : ℝ) (b : EReal) :
    (s : EReal) * ((∑ k, (x k : EReal) * (w k : EReal)) + (o : EReal) * (0 + ∑ k, (x k : EReal))) + b
      = (∑ k, (x k : EReal) * (((w k : EReal) + (o : EReal)) * (s : EReal))) + b := by
  have h1 : (∑ k, (x k : EReal) * (w k : EReal)) = ((∑ k, x k * w k : ℝ) : EReal) := by
    rw [coe_sum]; exact Finset.sum_congr rfl fun k _ => (EReal.coe_mul _ _).symm
  have h2 : (∑ k, (x k : EReal)) = ((∑ k, x k : ℝ) : EReal) := (coe_sum _ _).symm
  have h3 : (∑ k, (x k : EReal) * (((w k : EReal) + (o : EReal)) * (s : EReal))) = ((∑ k, x k * ((w k + o) * s) : ℝ) : EReal) := by
    rw [coe_sum]; exact Finset.sum_congr rfl fun k _ => by rw [EReal.coe_mul, EReal.coe_mul, EReal.coe_add]
  rw [h1, h2, h3, zero_add, ← EReal.coe_mul, ← EReal.coe_add, ← EReal.coe_mul, affine_out_real]

end Cert.DequantLaw
-- ==== Proof.DequantSpec.lean ====
/-
  The result both programs compute, as one function of the argument arrays, in its two arrangements.

  Arguments: activations x : [512, 4096]; quantized weights wq : [11008, 4096], 32-bit integers read signed; a scale and an
  offset per output channel, each an [11008, 1] column; a bias b : [11008]. Entry (p, n) of the result is

    reference arrangement : (∑ k, x[p,k] * ((wq[n,k] + off[n]) * sc[n])) + b[n]      -- dequantize every weight, then contract
    kernel arrangement    : sc[n] * ((∑ k, x[p,k] * wq[n,k]) + off[n] * (0 + ∑ k, x[p,k])) + b[n]
                                                                                      -- contract the integers, correct afterwards

  They agree when x, sc and off are finite (`DequantLaw.affine_out`); the integers are always finite and b is arbitrary.
-/
import Idealize.ShloMosaic.PureOps.Ideal
import Idealize.ShloMosaic.Lib.ValueIdx
import proofs.«108590_j21251498180870_2_alg».proof.Proof.DequantLaw

noncomputable section

open scoped BigOperators

namespace Cert.DequantSpec

open Idealize.ShloMosaic Idealize.ShloMosaic.ValueIdx

/-- A 32-bit word read as a signed integer, as an extended real. -/
abbrev intVal (w : BitVec 32) : EReal := ((w.toInt : ℝ) : EReal)

variable (x : (⟨2, ![512, 4096]⟩ : Shape).Idx → EReal) (wq : (⟨2, ![11008, 4096]⟩ : Shape).Idx → BitVec 32)
  (sc off : (⟨2, ![11008, 1]⟩ : Shape).Idx → EReal) (b : (⟨1, ![11008]⟩ : Shape).Idx → EReal)

/-- Entry (p, n) in the reference's arrangement. -/
def refAt (p : Fin 512) (n : Fin 11008) : EReal :=
  (∑ k : Fin 4096, x (ix2 p k) * ((intVal (wq (ix2 n k)) + off (ix2 n (0 : Fin 1))) * sc (ix2 n (0 : Fin 1)))) + b (ix1 n)

/-- Entry (p, n) in the kernel's arrangement. -/
def kerAt (p : Fin 512) (n : Fin 11008) : EReal :=
  sc (ix2 n (0 : Fin 1)) * ((∑ k : Fin 4096, x (ix2 p k) * intVal (wq (ix2 n k))) + off (ix2 n (0 : Fin 1)) * (0 + ∑ k : Fin 4096, x (ix2 p k)))
    + b (ix1 n)

/-- The result array in the reference's arrangement. -/
def refForm : (⟨2, ![512, 11008]⟩ : Shape).Idx → EReal := fun i => refAt x wq sc off b (i 0) (i 1)

/-- The result array in the kernel's arrangement. -/
def kerForm : (⟨2, ![512, 11008]⟩ : Shape).Idx → EReal := fun i => kerAt x wq sc off b (i 0) (i 1)

/-- With finite activations, scales and offsets the two arrangements are one function. -/
theorem kerForm_eq_refForm (hx : ∀ i, ∃ r : ℝ, x i = (r : EReal)) (hs : ∀ i, ∃ r : ℝ, sc i = (r : EReal))
    (ho : ∀ i, ∃ r : ℝ, off i = (r : EReal)) : kerForm x wq sc off b = refForm x wq sc off b := by
  funext i
  choose xr hxr using hx
  obtain ⟨s, hs⟩ := hs (ix2 (i 1) (0 : Fin 1))
  obtain ⟨o, ho⟩ := ho (ix2 (i 1) (0 : Fin 1))
  unfold kerForm refForm kerAt refAt
  simp only [hxr, hs, ho]
  exact Cert.DequantLaw.affine_out (fun k => xr (ix2 (i 0) k)) (fun k => ((wq (ix2 (i 1) k)).toInt : ℝ)) o s _

end Cert.DequantSpec

end
-- ==== Proof.RefValue.lean ====
/-
  The reference computes the result in its own arrangement.

  Read one operation at a time, the reference converts the integer weights, adds the offset column and multiplies by the
  scale column (both repeated along the 4096 input features), contracts the activations against those dequantized
  weights over the feature axis, and adds the bias repeated down the 512 rows. Entry (p, n) is therefore
  (∑ k, x[p,k] * ((wq[n,k] + off[n]) * sc[n])) + b[n].
-/
import proofs.«108590_j21251498180870_2_alg».proof.Proof.Gen.ReferenceIdeal.Read
import proofs.«108590_j21251498180870_2_alg».proof.Proof.DequantSpec

noncomputable section

namespace Cert.ReferenceIdeal.RefValue

open Cert.ReferenceIdeal Cert.ReferenceIdeal.Read Idealize.ShloMosaic Idealize.ShloMosaic.ValueIdx Cert.DequantSpec

/-- The reference's last stage is the result in the reference's arrangement. -/
theorem result_eq (x0 : (⟨S512x4096, .f32⟩ : BufTy).Contents (Elt Ideal)) (x1 : (⟨S11008x4096, .i32⟩ : BufTy).Contents (Elt Ideal))
    (x2 x3 : (⟨S11008x1, .f32⟩ : BufTy).Contents (Elt Ideal)) (x4 : (⟨S11008, .f32⟩ : BufTy).Contents (Elt Ideal)) :
    val_main_v8 (F := Ideal) x0 x1 x2 x3 x4 = refForm x0 x1 x2 x3 x4 := by
  funext i
  obtain ⟨p, n, rfl⟩ : ∃ (p : Fin 512) (n : Fin 11008), i = ix2 p n := ⟨i 0, i 1, eq_ix2 i⟩
  have el : ∀ k : Fin 4096, lidx_main_v5 (ix2 p n) k = ix2 p k := fun k => funext fun a => by
    match a with | ⟨0, _⟩ => rfl | ⟨1, _⟩ => rfl
  have er : ∀ k : Fin 4096, ridx_main_v5 (ix2 p n) k = ix2 n k := fun k => funext fun a => by
    match a with | ⟨0, _⟩ => rfl | ⟨1, _⟩ => rfl
  have e1 : ∀ k : Fin 4096, idx_main_v1 (ix2 n k) = ix2 n (0 : Fin 1) := fun k => funext fun a => by
    match a with | ⟨0, _⟩ => rfl | ⟨1, _⟩ => rfl
  have e3 : ∀ k : Fin 4096, idx_main_v3 (ix2 n k) = ix2 n (0 : Fin 1) := fun k => funext fun a => by
    match a with | ⟨0, _⟩ => rfl | ⟨1, _⟩ => rfl
  have e6 : idx_main_v6 (idx_main_v7 (ix2 p n)) = ix1 n := funext fun a => by
    match a with | ⟨0, _⟩ => rfl
  rw [val_main_v8_apply, val_main_v5_apply, val_main_v7_apply, val_main_v6_apply, e6, Ideal.addf_def]
  show _ = refAt x0 x1 x2 x3 x4 p n
  unfold refAt
  refine congrArg (· + x4 (ix1 n)) (Finset.sum_congr rfl fun k _ => ?_)
  rw [el, er, val_main_v4_apply, val_main_v2_apply, val_main_v0_apply, val_main_v1_apply, val_main_v3_apply, e1, e3]
  rfl

end Cert.ReferenceIdeal.RefValue

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Payload.lean ====
/-
  One entry of the block the kernel body stores.

  At a grid point the body holds a [256, 4096] tile of integer weights, the whole [512, 4096] activations, one [1, 256]
  row each of scales, offsets and biases, and the [512, 1] column of row sums. It converts the integers, contracts the
  activations against them over the 4096 features (a matrix product into a zero accumulator, so just the sum of products),
  and corrects: entry (p, q) of the stored [512, 256] block is
      scale[q] * ((∑ k, x[p,k] * w[q,k]) + offset[q] * rowsum[p]) + bias[q].
  A row repeated down the 512 rows reads its entry at the column; the column repeated along the 256 columns reads its
  entry at the row; changes of float format are the identity on the extended reals.
-/
import proofs.«108590_j21251498180870_2_alg».proof.Proof.Gen.KernelIdeal.Skeleton
import proofs.«108590_j21251498180870_2_alg».proof.Proof.DequantSpec
import proofs.«108590_j21251498180870_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.ShloMosaic.ColumnLayout
open Cert.DequantSpec

/-- The tile product's left operand index at output index `i`: its row is the output's row … -/
theorem lhs_row (i : S512x256.Idx) (c : dot_S512x4096_S256x4096_S512x256_1_1_0_0_n_n.contr.Idx) :
    (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- … and its feature is the contraction coordinate. -/
theorem lhs_feat (i : S512x256.Idx) (c : dot_S512x4096_S256x4096_S512x256_1_1_0_0_n_n.contr.Idx) :
    (dot_S512x4096_S256x4096_S512x256_1_1_0_0_n_n.lhsIdx i c 1).val = (c ⟨0, by decide⟩).val :=
  dot_S512x4096_S256x4096_S512x256_1_1_0_0_n_n.lhsIdx_val_of_single rfl i c
/-- The right operand is contracted along its own last axis: its row is the output's column … -/
theorem rhs_row (i : S512x256.Idx) (c : dot_S512x4096_S256x4096_S512x256_1_1_0_0_n_n.contr.Idx) :
    (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- … and its feature is the contraction coordinate. -/
theorem rhs_feat (i : S512x256.Idx) (c : dot_S512x4096_S256x4096_S512x256_1_1_0_0_n_n.contr.Idx) :
    (dot_S512x4096_S256x4096_S512x256_1_1_0_0_n_n.rhsIdx i c 1).val = (c ⟨0, by decide⟩).val :=
  dot_S512x4096_S256x4096_S512x256_1_1_0_0_n_n.rhsIdx_val_of_single rfl i c

/-- The tile product into a zero accumulator, at (p, q): the sum over the features of the products. -/
theorem tile_product_apply (l : FVec Ideal S512x4096 .bf16) (r : FVec Ideal S256x4096 .bf16) (p : Fin 512) (q : Fin 256) :
    matmul dot_S512x4096_S256x4096_S512x256_1_1_0_0_n_n none l r (constant (F := Ideal) S512x256 .f32 0x00000000#32) (ix2 p q)
      = ∑ k : Fin 4096, l (ix2 p k) * r (ix2 q k) := by
  simp only [matmul]
  rw [Ideal.matmul_constant_zero_apply,
    ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q)
      ((contrEquiv1 dot_S512x4096_S256x4096_S512x256_1_1_0_0_n_n 4096 rfl rfl).symm k) = ix2 p k := funext fun a => Fin.ext (by
    match a with
    | ⟨0, _⟩ => exact lhs_row _ _
    | ⟨1, _⟩ => exact (lhs_feat _ _).trans hk)
  have er : dot_S512x4096_S256x4096_S512x256_1_1_0_0_n_n.rhsIdx (ix2 p q)
      ((contrEquiv1 dot_S512x4096_S256x4096_S512x256_1_1_0_0_n_n 4096 rfl rfl).symm k) = ix2 q k := funext fun a => Fin.ext (by
    match a with
    | ⟨0, _⟩ => exact rhs_row _ _
    | ⟨1, _⟩ => exact (rhs_feat _ _).trans hk)
  rw [el, er]

/-- Entry (p, q) of the stored block, from the body's loads. -/
theorem pay_apply (v0 : Vec Ideal S256x4096 .i32) (v3 : Vec Ideal S512x4096 .bf16) (v6 v8 v10 : Vec Ideal S1x256 .f32)
    (v12 : Vec Ideal S512x1 .f32) (p : Fin 512) (q : Fin 256) :
    k0_pay1 (F := Ideal) v0 v3 v6 v8 v10 v12 (ix2 p q)
      = v6 (ix2 (0 : Fin 1) q) * ((∑ k : Fin 4096, v3 (ix2 p k) * intVal (v0 (ix2 q k))) + v8 (ix2 (0 : Fin 1) q) * v12 (ix2 p (0 : Fin 1)))
        + v10 (ix2 (0 : Fin 1) q) := by
  unfold k0_pay1
  simp only [shapeCast_self]
  rw [addf_apply, mulf_apply, addf_apply, mulf_apply, tile_product_apply,
    broadcastTo_1b_ab_apply, broadcastTo_1b_ab_apply, broadcastTo_1b_ab_apply, broadcastTo_a1_ab_apply]
  rfl

end Cert.KernelIdeal.Payload

end
-- ==== Proof.EntryArrays.lean ====
/-
  The arrays the kernel's windows read, as the launch finds them.

  Before the launch the program narrows the activations' format (the identity on the extended reals), sums each of their
  512 rows from zero and keeps the sums as a [512, 1] column, and re-lays the scale column, the offset column and the bias
  vector as [1, 11008] rows. So the staged arrays are the arguments themselves up to the arrangement:
  the activations unchanged; the column's row p is 0 + ∑ k, x[p,k]; column n of each row is the argument's entry n.
-/
import proofs.«108590_j21251498180870_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The five argument arrays as launched on core `c`, at their shapes: activations, integer weights, scales, offsets, biases. -/
abbrev acts (c : Dev nD) : S512x4096.Idx → EReal := m ((c : Thread nD τ).loc main_arg0)
abbrev wts (c : Dev nD) : S11008x4096.Idx → BitVec 32 := m ((c : Thread nD τ).loc main_arg1)
abbrev scales (c : Dev nD) : S11008x1.Idx → EReal := m ((c : Thread nD τ).loc main_arg2)
abbrev offsets (c : Dev nD) : S11008x1.Idx → EReal := m ((c : Thread nD τ).loc main_arg3)
abbrev biases (c : Dev nD) : S11008.Idx → EReal := m ((c : Thread nD τ).loc main_arg4)

/-- The staged activations are the argument: narrowing the float format changes no extended real. -/
theorem acts_eq (c : Dev nD) : (V m c main_v0 : S512x4096.Idx → EReal) = acts m c := by
  dsimp only [Gen.V, Gen.hostOps0]; after_results; rfl

/-- Row p of the staged column of row sums is zero plus the sum of the activations' row p. -/
theorem rowsum_apply (c : Dev nD) (p : Fin 512) :
    (V m c main_v2 : S512x1.Idx → EReal) (ix2 p (0 : Fin 1)) = 0 + ∑ k : Fin 4096, acts m c (ix2 p k) := by
  have e : (V m c main_v2 : S512x1.Idx → EReal)
      = broadcastInDim S512x1 ![0] bcast_S512_S512x1_0
          (Host.reduceAdd (F := Ideal) (acts m c) (constant (F := Ideal) S_ .f32 0x00000000#32) reducesTo_S512x4096_S512_d1 h_S_) := by
    dsimp only [Gen.V, Gen.hostOps0]; after_results
  rw [e, broadcastInDim_apply _ bcast_S512_S512x1_0 _ (ix2 p (0 : Fin 1)) (ix1 p) (fun a => match a with
    | ⟨0, _⟩ => by show p.val = if (512 : Nat) = 1 then 0 else p.val; rw [if_neg (by decide)])]
  simp only [Host.reduceAdd, Ideal.hostReduceAdd_def]
  rw [Ideal.hostReduceAdd_single reducesTo_S512x4096_S512_d1 (by decide)]
  refine congr (congrArg _ ?_) (Finset.sum_congr rfl fun k _ => ?_)
  · exact Ideal.ofBits_zero_f32
  · exact congrArg _ (funext fun a => Fin.ext (by match a with | ⟨0, _⟩ => rfl | ⟨1, _⟩ => rfl))

/-- Column n of the staged scale row is the scale of channel n. -/
theorem scale_apply (c : Dev nD) (n : Fin 11008) :
    (V m c main_v3 : S1x11008.Idx → EReal) (ix2 (0 : Fin 1) n) = scales m c (ix2 n (0 : Fin 1)) := by
  have e : (V m c main_v3 : S1x11008.Idx → EReal)
      = shapeCast S1x11008 (scales m c) shapeCasts_S11008x1_S1x11008 := by
    dsimp only [Gen.V, Gen.hostOps0]; after_results; rfl
  rw [e]
  exact shapeCast_apply _ _ _ _ (by
    rw [Shape.rowMajor_val_two, Shape.rowMajor_val_two]
    show n.val * 1 + 0 = 0 * 11008 + n.val
    omega)

/-- Column n of the staged offset row is the offset of channel n. -/
theorem offset_apply (c : Dev nD) (n : Fin 11008) :
    (V m c main_v4 : S1x11008.Idx → EReal) (ix2 (0 : Fin 1) n) = offsets m c (ix2 n (0 : Fin 1)) := by
  have e : (V m c main_v4 : S1x11008.Idx → EReal)
      = shapeCast S1x11008 (offsets m c) shapeCasts_S11008x1_S1x11008 := by
    dsimp only [Gen.V, Gen.hostOps0]; after_results; rfl
  rw [e]
  exact shapeCast_apply _ _ _ _ (by
    rw [Shape.rowMajor_val_two, Shape.rowMajor_val_two]
    show n.val * 1 + 0 = 0 * 11008 + n.val
    omega)

/-- Column n of the staged bias row is the bias of channel n. -/
theorem bias_apply (c : Dev nD) (n : Fin 11008) :
    (V m c main_v5 : S1x11008.Idx → EReal) (ix2 (0 : Fin 1) n) = biases m c (ix1 n) := by
  have e : (V m c main_v5 : S1x11008.Idx → EReal)
      = shapeCast S1x11008 (biases m c) shapeCasts_S11008_S1x11008 := by
    dsimp only [Gen.V, Gen.hostOps0]; after_results; rfl
  rw [e]
  exact shapeCast_a_1a_apply _ _ (0 : Fin 1) n

end Cert.KernelIdeal.EntryArrays

end
-- ==== Proof.BlocksToArray.lean ====
/-
  From the blocks the grid points write back to the whole result array.

  The grid has 43 points; point t holds the whole activations and the whole column of row sums, rows 256·t … 256·t + 255
  of the integer weights, and columns 256·t … 256·t + 255 of the scale, offset and bias rows, and writes back the
  [512, 256] block of columns 256·t … 256·t + 255 of the result. Entry (p, q) of what it writes is the kernel's
  arrangement of the result at (p, 256·t + q), a function of the argument arrays alone; the 43 blocks tile the 11008
  columns, so after the run the result array is that function everywhere.
-/
import proofs.«108590_j21251498180870_2_alg».proof.Proof.Gen.KernelIdeal.Value
import proofs.«108590_j21251498180870_2_alg».proof.Proof.Payload
import proofs.«108590_j21251498180870_2_alg».proof.Proof.EntryArrays

set_option maxRecDepth 16384

noncomputable section

open scoped BigOperators

namespace Cert.KernelIdeal.BlocksToArray

open Cert.KernelIdeal Cert.KernelIdeal.Gen Idealize.ShloMosaic Idealize.ShloMosaic.TcCoe Idealize.SL.Sem
open Idealize.ShloMosaic.Pipeline (Dat)
open Idealize.ShloMosaic.ValueIdx Cert.DequantSpec Cert.KernelIdeal.EntryArrays Cert.KernelIdeal.Payload

variable (m : (ℓ : Loc nD τ sig) → Buf (Elt Ideal) ℓ) (ρ : Dev nD → PrngReg)

theorem origin : (![0, 0] : Fin 2 → Nat) = fun _ => 0 := funext fun a => by fin_cases a <;> rfl

/-- The result array in the kernel's arrangement, of the argument arrays as launched on core `c`. -/
abbrev result (c : Dev nD) : S512x11008.Idx → EReal :=
  kerForm (acts m c) (wts m c) (scales m c) (offsets m c) (biases m c)

/-- The stored block's entry (p, q) is the kernel's arrangement at (p, n), once the body's loads are known to be the
    arguments' entries on row p, weight row n and channel n. -/
theorem block_entry (x0 : Vec Ideal S512x4096 .bf16) (x1 : Vec Ideal S512x1 .f32) (x2 : Vec Ideal S256x4096 .i32)
    (x3 x4 x5 : Vec Ideal S1x256 .f32)
    (X : S512x4096.Idx → EReal) (W : S11008x4096.Idx → BitVec 32) (SC OFF : S11008x1.Idx → EReal) (B : S11008.Idx → EReal)
    (p : Fin 512) (q : Fin 256) (n : Fin 11008)
    (h0 : ∀ k : Fin 4096, x0 (ix2 p k) = X (ix2 p k))
    (h1 : x1 (ix2 p (0 : Fin 1)) = 0 + ∑ k : Fin 4096, X (ix2 p k))
    (h2 : ∀ k : Fin 4096, x2 (ix2 q k) = W (ix2 n k))
    (h3 : x3 (ix2 (0 : Fin 1) q) = SC (ix2 n (0 : Fin 1)))
    (h4 : x4 (ix2 (0 : Fin 1) q) = OFF (ix2 n (0 : Fin 1)))
    (h5 : x5 (ix2 (0 : Fin 1) q) = B (ix1 n)) :
    k0_pay1 (F := Ideal) x2 x0 x3 x4 x5 x1 (ix2 p q) = kerAt X W SC OFF B p n := by
  rw [pay_apply, h1, h3, h4, h5]
  unfold kerAt
  simp only [h0, h2]

/-- The printed index maps over the grid: the activations and the row sums stay at block (0, 0); the weights' row block
    and the scale, offset and bias column blocks are the output's column block. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_6.index t (1 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) = 0 ∧ win0_6.index t (1 : Fin 2) ≤ 42 :=
  (by decide +kernel : ∀ t : Fin grid0.N, _)

/-- Every column block is some point's. -/
theorem idx_onto : ∀ q1 : Fin 43, ∃ t : Fin cfg0.N, win0_6.index t = ![0, q1.val] :=
  (by decide +kernel : ∀ q1 : Fin 43, ∃ t : Fin grid0.N, win0_6.index t = ![0, q1.val])

/-- What point `t` writes back is block `t` of the result. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin]
  simp only [View.ld_unit_zero (S := S256x4096) origin, View.ld_unit_zero (S := S512x4096) origin,
    View.ld_unit_zero (S := S1x256) origin, View.ld_unit_zero (S := S512x1) origin]
  obtain ⟨e00, e01, e10, e11, e20, e21, e30, e31, e40, e41, e50, e51, e60, e61⟩ := idx_facts t
  funext y
  obtain ⟨p, q, rfl⟩ : ∃ (p : Fin 512) (q : Fin 256), y = ix2 p q := ⟨y 0, y 1, eq_ix2 y⟩
  have hp : p.val < 512 := p.isLt
  have hq : q.val < 256 := q.isLt
  have hn : win0_6.index t (1 : Fin 2) * 256 + q.val < 11008 := by omega
  show k0_pay1 (F := Ideal) (iblk m c 2 t) (iblk m c 0 t) (iblk m c 3 t) (iblk m c 4 t) (iblk m c 5 t) (iblk m c 1 t) (ix2 p q)
    = result m c (((cfg0.win 6).blk t).view.emb (ix2 p q))
  have hout : ((cfg0.win 6).blk t).view.emb (ix2 p q) = ix2 p ⟨win0_6.index t (1 : Fin 2) * 256 + q.val, hn⟩ := by
    funext a; apply Fin.ext
    match a with
    | ⟨0, _⟩ => show win0_6.index t (0 : Fin 2) * 512 + 1 * p.val = p.val; omega
    | ⟨1, _⟩ => show win0_6.index t (1 : Fin 2) * 256 + 1 * q.val = win0_6.index t (1 : Fin 2) * 256 + q.val; omega
  rw [hout]
  refine block_entry (iblk m c 0 t) (iblk m c 1 t) (iblk m c 2 t) (iblk m c 3 t) (iblk m c 4 t) (iblk m c 5 t)
    (acts m c) (wts m c) (scales m c) (offsets m c) (biases m c) p q ⟨win0_6.index t (1 : Fin 2) * 256 + q.val, hn⟩
    ?_ ?_ ?_ ?_ ?_ ?_
  · intro k
    have hk : k.val < 4096 := k.isLt
    show V m c main_v0 (((cfg0.win 0).blk t).view.emb (ix2 p k)) = acts m c (ix2 p k)
    rw [acts_eq]
    refine congrArg (acts m c) (funext fun a => Fin.ext ?_)
    match a with
    | ⟨0, _⟩ => show win0_0.index t (0 : Fin 2) * 512 + 1 * p.val = p.val; omega
    | ⟨1, _⟩ => show win0_0.index t (1 : Fin 2) * 4096 + 1 * k.val = k.val; omega
  · show V m c main_v2 (((cfg0.win 1).blk t).view.emb (ix2 p (0 : Fin 1))) = _
    have e : ((cfg0.win 1).blk t).view.emb (ix2 p (0 : Fin 1)) = ix2 p (0 : Fin 1) := by
      funext a; apply Fin.ext
      match a with
      | ⟨0, _⟩ => show win0_1.index t (0 : Fin 2) * 512 + 1 * p.val = p.val; omega
      | ⟨1, _⟩ => show win0_1.index t (1 : Fin 2) * 1 + 1 * 0 = 0; omega
    rw [e]
    exact rowsum_apply m c p
  · intro k
    have hk : k.val < 4096 := k.isLt
    show V m c main_arg1 (((cfg0.win 2).blk t).view.emb (ix2 q k)) = wts m c (ix2 _ k)
    rw [V_main_arg1]
    refine congrArg (wts m c) (funext fun a => Fin.ext ?_)
    match a with
    | ⟨0, _⟩ => show win0_2.index t (0 : Fin 2) * 256 + 1 * q.val = win0_6.index t (1 : Fin 2) * 256 + q.val; omega
    | ⟨1, _⟩ => show win0_2.index t (1 : Fin 2) * 4096 + 1 * k.val = k.val; omega
  · show V m c main_v3 (((cfg0.win 3).blk t).view.emb (ix2 (0 : Fin 1) q)) = _
    have e : ((cfg0.win 3).blk t).view.emb (ix2 (0 : Fin 1) q) = ix2 (0 : Fin 1) ⟨win0_6.index t (1 : Fin 2) * 256 + q.val, hn⟩ := by
      funext a; apply Fin.ext
      match a with
      | ⟨0, _⟩ => show win0_3.index t (0 : Fin 2) * 1 + 1 * 0 = 0; omega
      | ⟨1, _⟩ => show win0_3.index t (1 : Fin 2) * 256 + 1 * q.val = win0_6.index t (1 : Fin 2) * 256 + q.val; omega
    rw [e]
    exact scale_apply m c _
  · show V m c main_v4 (((cfg0.win 4).blk t).view.emb (ix2 (0 : Fin 1) q)) = _
    have e : ((cfg0.win 4).blk t).view.emb (ix2 (0 : Fin 1) q) = ix2 (0 : Fin 1) ⟨win0_6.index t (1 : Fin 2) * 256 + q.val, hn⟩ := by
      funext a; apply Fin.ext
      match a with
      | ⟨0, _⟩ => show win0_4.index t (0 : Fin 2) * 1 + 1 * 0 = 0; omega
      | ⟨1, _⟩ => show win0_4.index t (1 : Fin 2) * 256 + 1 * q.val = win0_6.index t (1 : Fin 2) * 256 + q.val; omega
    rw [e]
    exact offset_apply m c _
  · show V m c main_v5 (((cfg0.win 5).blk t).view.emb (ix2 (0 : Fin 1) q)) = _
    have e : ((cfg0.win 5).blk t).view.emb (ix2 (0 : Fin 1) q) = ix2 (0 : Fin 1) ⟨win0_6.index t (1 : Fin 2) * 256 + q.val, hn⟩ := by
      funext a; apply Fin.ext
      match a with
      | ⟨0, _⟩ => show win0_5.index t (0 : Fin 2) * 1 + 1 * 0 = 0; omega
      | ⟨1, _⟩ => show win0_5.index t (1 : Fin 2) * 256 + 1 * q.val = win0_6.index t (1 : Fin 2) * 256 + q.val; omega
    rw [e]
    exact bias_apply m c _

/-- An index of the result array is in point `t`'s block iff each coordinate is in the block's range on its axis. -/
theorem mem_blk (t : Fin cfg0.N) (i : S512x11008.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v6).slice (win0_6.rect t)).set ↔ _
  rw [View.set_slice_whole, Rect.mem_set_unit]
  exact Iff.rfl

/-- Every index of the result array is in the block of the point that holds its column: column n is in block n / 256. -/
theorem cover (i : S512x11008.Idx) : ∃ t : Fin cfg0.N, (cfg0.win 6).flush t = true ∧ i ∈ ((cfg0.win 6).blk t).view.set := by
  have hi0 : (i 0).val < 512 := (i 0).isLt
  have hi1 : (i 1).val < 11008 := (i 1).isLt
  obtain ⟨t, ht⟩ := idx_onto ⟨(i 1).val / 256, by omega⟩
  have q0 : win0_6.index t (0 : Fin 2) = 0 := congrFun ht 0
  have q1 : win0_6.index t (1 : Fin 2) = (i 1).val / 256 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- The result array after the run is the kernel's arrangement of the arguments. -/
theorem final (c : Dev nD) : (dats m 0 c).arrAt 6 cfg0.N = result m c :=
  (dats m 0 c).arrAt_eq_of_cover 6 (result m c) (fun t _ => flushed_eq m c t) cover

/-- The kernel's run: it terminates with the result array at the kernel's arrangement of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.BlocksToArray

end
-- ==== Proof.FiniteInputs.lean ====
/-
  What the precondition gives: the float inputs hold real numbers.

  The precondition is the conjunction, over the four float arguments, of "every entry's absolute value is below +∞".
  On the extended reals |x| = max x (-x) is +∞ exactly at the two infinities, so each entry of the activations, the
  scales and the offsets is a real. (The biases are finite too; nothing here needs that.)
-/
import proofs.«108590_j21251498180870_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

variable [Cert.Pre_finite_inputs.Facts]

instance : Subsingleton S_.Idx := ⟨fun a b => funext fun d => d.elim0⟩

/-- The word the precondition compares against is +∞. -/
theorem inf_word : Ideal.ofBits .f32 0x7F800000#32 = (⊤ : EReal) := by simp [Ideal.ofBits, Ideal.ieee]

/-- An extended real whose absolute value compares below +∞ is a real. -/
theorem real_of_abs_lt_inf (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => simp at hlt
  | top => simp at hlt
  | coe r => exact ⟨r, rfl⟩

/-- Under the precondition every activation, scale and offset is a real. -/
theorem reals_of_pre (a0 : FVec Ideal S512x4096 .f32) (a1 : IVec S11008x4096 32) (a2 a3 : FVec Ideal S11008x1 .f32)
    (a4 : FVec Ideal S11008 .f32) (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h13, -⟩ := IntOp.andi_eq_one.1 h0
  obtain ⟨h8, h12⟩ := IntOp.andi_eq_one.1 h13
  obtain ⟨h3, h7⟩ := IntOp.andi_eq_one.1 h8
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h12 i)⟩

end Cert.FiniteInputs

end
-- ==== Proof.lean ====
/-
  A weight-quantized linear layer, y = x · dequant(wq)ᵀ + b over activations x : [512, 4096], integer weights
  wq : [11008, 4096], per-channel scales and offsets and a bias, computed two ways.

  The reference dequantizes every weight, (wq[n,k] + off[n]) · sc[n], contracts against x over the 4096 features and adds
  the bias. The kernel contracts x against the integers themselves, one 256-channel tile per grid point, and corrects
  afterwards: sc[n] · ((∑ k, x[p,k] · wq[n,k]) + off[n] · ∑ k, x[p,k]) + b[n], with the row sums ∑ k, x[p,k] computed once
  before the launch. On the extended reals the two are equal by distributivity, which needs x, sc and off finite: exactly
  what the precondition provides. Format changes are the identity there, a matrix product into a zero accumulator is the sum
  of products, and the 43 column blocks tile the result.

  The three frames: each program terminates without fault and leaves its arguments as they were (the reference's from its
  run with the result dropped). The idealized kernel is the kernel's own text read on the extended reals: nothing to preserve.
-/
import proofs.«108590_j21251498180870_2_alg».proof.Defs
import proofs.«108590_j21251498180870_2_alg».proof.Proof.Gen.Kernel
import proofs.«108590_j21251498180870_2_alg».proof.Proof.Gen.Kernel.Skeleton
import proofs.«108590_j21251498180870_2_alg».proof.Proof.Gen.Kernel.Launch
import proofs.«108590_j21251498180870_2_alg».proof.Proof.Gen.Kernel.Points
import proofs.«108590_j21251498180870_2_alg».proof.Proof.Gen.Kernel.Frame
import proofs.«108590_j21251498180870_2_alg».proof.Proof.Gen.KernelIdeal
import proofs.«108590_j21251498180870_2_alg».proof.Proof.Gen.KernelIdeal.Skeleton
import proofs.«108590_j21251498180870_2_alg».proof.Proof.Gen.KernelIdeal.Launch
import proofs.«108590_j21251498180870_2_alg».proof.Proof.Gen.KernelIdeal.Points
import proofs.«108590_j21251498180870_2_alg».proof.Proof.Gen.KernelIdeal.Frame
import proofs.«108590_j21251498180870_2_alg».proof.Proof.Gen.ReferenceIdeal
import proofs.«108590_j21251498180870_2_alg».proof.Proof.Gen.Pre_finite_inputs
import proofs.«108590_j21251498180870_2_alg».proof.Proof.Gen.KernelIdeal.Value
import proofs.«108590_j21251498180870_2_alg».proof.Proof.Gen.ReferenceIdeal.Run
import proofs.«108590_j21251498180870_2_alg».proof.Proof.Gen.ReferenceIdeal.Read
import proofs.«108590_j21251498180870_2_alg».proof.Proof.DequantSpec
import proofs.«108590_j21251498180870_2_alg».proof.Proof.RefValue
import proofs.«108590_j21251498180870_2_alg».proof.Proof.BlocksToArray
import proofs.«108590_j21251498180870_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the kernel's arrangement of the (agreeing) arguments: the kernel's by its blocks,
    the reference's because its own arrangement equals the kernel's once the activations, scales and offsets are finite. -/
theorem algebraic : Cert.algebraic_KernelIdeal_ReferenceIdeal := by
  intro m ρ m' ρ' hpre hagree
  refine ⟨fun c => Cert.KernelIdeal.BlocksToArray.result m c, Cert.KernelIdeal.BlocksToArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨hx, hs, ho⟩ := Cert.FiniteInputs.reals_of_pre _ _ _ _ _ (hpre c)
  exact (Cert.ReferenceIdeal.RefValue.result_eq _ _ _ _ _).trans (Cert.DequantSpec.kerForm_eq_refForm _ _ _ _ _ hx hs ho).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
